-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S512x256 : Shape := ⟨2, ![512, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S100000x256 .f32) (main_arg1 : FVec F S512x256 .f32) (main_arg2 : FVec F S512x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Kernel.lean ====
abbrev S100000x256 : Shape := ⟨2, ![100000, 256]⟩
abbrev S512x256 : Shape := ⟨2, ![512, 256]⟩
abbrev S1x512x256 : Shape := ⟨3, ![1, 512, 256]⟩
abbrev S2x512x256 : Shape := ⟨3, ![2, 512, 256]⟩
abbrev S2x100000x512 : Shape := ⟨3, ![2, 100000, 512]⟩
abbrev S2000x256 : Shape := ⟨2, ![2000, 256]⟩
abbrev S2x2000x512 : Shape := ⟨3, ![2, 2000, 512]⟩
abbrev S2000x512 : Shape := ⟨2, ![2000, 512]⟩
abbrev S2000 : Shape := ⟨1, ![2000]⟩
abbrev S2000x1 : Shape := ⟨2, ![2000, 1]⟩
abbrev S1x2000x256 : Shape := ⟨3, ![1, 2000, 256]⟩

abbrev nBuf : Space → Nat
  | .hbm => 7
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S512x256, .f32⟩
  | .hbm, ⟨2, _⟩ => ⟨S512x256, .f32⟩
  | .hbm, ⟨3, _⟩ => ⟨S1x512x256, .f32⟩
  | .hbm, ⟨4, _⟩ => ⟨S1x512x256, .f32⟩
  | .hbm, ⟨5, _⟩ => ⟨S2x512x256, .f32⟩
  | .hbm, ⟨6, _⟩ => ⟨S2x100000x512, .f32⟩
  | .local _ .vmem, ⟨0, _⟩ => ⟨S2000x256, .f32⟩
  | .local _ .vmem, ⟨1, _⟩ => ⟨S2000x256, .f32⟩
  | .local _ .vmem, ⟨2, _⟩ => ⟨S2x512x256, .f32⟩
  | .local _ .vmem, ⟨3, _⟩ => ⟨S2x2000x512, .f32⟩
  | .local _ .vmem, ⟨4, _⟩ => ⟨S2x2000x512, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

@[reducible] def k0_t1_loop : Scf.Loop 32 :=
  let c0_i32 : BitVec 32 := 0#32
  let c2_i32 : BitVec 32 := 2#32
  let v2 : BitVec 32 := Scalar.addi c0_i32 c2_i32
  let c1_i32 : BitVec 32 := 1#32
  ⟨c0_i32, v2, c1_i32⟩
def k0_off1 (k0_t1 : Fin k0_t1_loop.trips) : Fin 3 → Nat :=
  let c0_i32_3 : BitVec 32 := 0#32
  let c0_i32 : BitVec 32 := 0#32
  let c1_i32 : BitVec 32 := 1#32
  let arg4 : BitVec 32 := Scf.iv c0_i32 c1_i32 k0_t1
  let c1_i32_2 : BitVec 32 := 1#32
  let v3 : BitVec 32 := Scalar.muli arg4 c1_i32_2
  let v4 : BitVec 32 := Scalar.addi c0_i32_3 v3
  let v5 : Index := Scalar.indexCast v4
  let c0_4 : Index := 0#32
  let c0_5 : Index := 0#32
  ![v5.toNat, 0, 0]
def k0_off2 (k0_t1 : Fin k0_t1_loop.trips) : Fin 3 → Nat :=
  let c0_i32_3 : BitVec 32 := 0#32
  let c0_i32 : BitVec 32 := 0#32
  let c1_i32 : BitVec 32 := 1#32
  let arg4 : BitVec 32 := Scf.iv c0_i32 c1_i32 k0_t1
  let c1_i32_2 : BitVec 32 := 1#32
  let v3 : BitVec 32 := Scalar.muli arg4 c1_i32_2
  let v4 : BitVec 32 := Scalar.addi c0_i32_3 v3
  let v21 : Index := Scalar.indexCast v4
  let c0_9 : Index := 0#32
  let c0_10 : Index := 0#32
  ![v21.toNat, 0, 0]
def k0_off3 (k0_t1 : Fin k0_t1_loop.trips) : Fin 3 → Nat :=
  let c0_i32_3 : BitVec 32 := 0#32
  let c0_i32 : BitVec 32 := 0#32
  let c1_i32 : BitVec 32 := 1#32
  let arg4 : BitVec 32 := Scf.iv c0_i32 c1_i32 k0_t1
  let c1_i32_2 : BitVec 32 := 1#32
  let v3 : BitVec 32 := Scalar.muli arg4 c1_i32_2
  let v4 : BitVec 32 := Scalar.addi c0_i32_3 v3
  let v25 : Index := Scalar.indexCast v4
  let c0_11 : Index := 0#32
  let c256 : Index := 256#32
  ![v25.toNat, 0, 256]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S512x256_S1x512x256_1_2 : S512x256.BroadcastsInDim S1x512x256 (![1, 2] : Fin 2 → Fin S1x512x256.rank)
  concatenates_S1x512x256_S1x512x256_S2x512x256_d0 : Shape.Concatenates [S1x512x256, S1x512x256] S2x512x256 0
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  h_S1x512x256 : 0 < S1x512x256.numel
  shapeCasts_S1x512x256_S512x256 : S1x512x256.ShapeCasts S512x256
  reduces_S2000x512_S2000 : S2000x512.Reduces [1] S2000
  shapeCasts_S2000_S2000x1 : S2000.ShapeCasts S2000x1
  broadcasts_S2000x1_S2000x512 : S2000x1.Broadcasts S2000x512
  h_S1x2000x256 : 0 < S1x2000x256.numel
  shapeCasts_S1x2000x256_S2000x256 : S1x2000x256.ShapeCasts S2000x256
  shapeCasts_S2000x256_S1x2000x256 : S2000x256.ShapeCasts S1x2000x256
  dot_S2000x256_S512x256_S2000x512_1_1_0_0_n_n_wf : DotDims.WF S2000x256 S512x256 S2000x512 [1] [1] [0] [0] [] []
  dot_S2000x512_S512x256_S2000x256_1_0_0_1_n_n_wf : DotDims.WF S2000x512 S512x256 S2000x256 [1] [0] [0] [1] [] []
  hrank0 : 0 < grid0.rank
  k0_t1_ok : k0_t1_loop.OK
  k0_off1_inb : ∀ k0_t1 : Fin k0_t1_loop.trips, ∀ a, (k0_off1 k0_t1) a + S1x512x256.size a ≤ S2x512x256.size a
  k0_off2_inb : ∀ k0_t1 : Fin k0_t1_loop.trips, ∀ a, (k0_off2 k0_t1) a + S1x2000x256.size a ≤ S2x2000x512.size a
  k0_off3_inb : ∀ k0_t1 : Fin k0_t1_loop.trips, ∀ a, (k0_off3 k0_t1) a + S1x2000x256.size a ≤ S2x2000x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x512x256.size a ≤ S2x512x256.size a
  hwx0_1 : ∀ i : grid0.Coords, EltTy.bits .f32 = 32 ∨ (Rect.block (s := S2x512x256) S2x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x2000x512.size a ≤ S2x100000x512.size a
  hwx0_2 : ∀ i : grid0.Coords, EltTy.bits .f32 = 32 ∨ (Rect.block (s := S2x100000x512) S2x2000x512.size (cc0_transform_2 i) (hinb0_2 i)).WholeWords (EltTy.packing .f32)

variable [Facts₀]

def dot_S2000x256_S512x256_S2000x512_1_1_0_0_n_n : DotDims S2000x256 S512x256 S2000x512 where
  lhsContracting := [1]
  rhsContracting := [1]
  lhsNonContracting := [0]
  rhsNonContracting := [0]
  lhsBatch := []
  rhsBatch := []
  wf := dot_S2000x256_S512x256_S2000x512_1_1_0_0_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2x512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2x2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S512x256 : Shape := ⟨2, ![512, 256]⟩
abbrev S256x512 : Shape := ⟨2, ![256, 512]⟩
abbrev S100000x512 : Shape := ⟨2, ![100000, 512]⟩
abbrev S_ : Shape := ⟨0, ![]⟩
abbrev S100000 : Shape := ⟨1, ![100000]⟩
abbrev S100000x1 : Shape := ⟨2, ![100000, 1]⟩
abbrev S1x100000x512 : Shape := ⟨3, ![1, 100000, 512]⟩
abbrev S2x100000x512 : Shape := ⟨3, ![2, 100000, 512]⟩

abbrev nBuf : Space → Nat
  | .hbm => 42
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S512x256, .f32⟩
  | .hbm, ⟨2, _⟩ => ⟨S512x256, .f32⟩
  | .hbm, ⟨3, _⟩ => ⟨S256x512, .f32⟩
  | .hbm, ⟨4, _⟩ => ⟨S100000x512, .f32⟩
  | .hbm, ⟨5, _⟩ => ⟨S_, .f32⟩
  | .hbm, ⟨6, _⟩ => ⟨S100000, .f32⟩
  | .hbm, ⟨7, _⟩ => ⟨S_, .f32⟩
  | .hbm, ⟨8, _⟩ => ⟨S100000, .f32⟩
  | .hbm, ⟨9, _⟩ => ⟨S100000, .f32⟩
  | .hbm, ⟨10, _⟩ => ⟨S100000x1, .f32⟩
  | .hbm, ⟨11, _⟩ => ⟨S100000x512, .f32⟩
  | .hbm, ⟨12, _⟩ => ⟨S100000x512, .f32⟩
  | .hbm, ⟨13, _⟩ => ⟨S100000x512, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x512, .f32⟩
  | .hbm, ⟨18, _⟩ => ⟨S100000x512, .f32⟩
  | .hbm, ⟨19, _⟩ => ⟨S100000x256, .f32⟩
  | .hbm, ⟨20, _⟩ => ⟨S100000x512, .f32⟩
  | .hbm, ⟨21, _⟩ => ⟨S256x512, .f32⟩
  | .hbm, ⟨22, _⟩ => ⟨S100000x512, .f32⟩
  | .hbm, ⟨23, _⟩ => ⟨S_, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x512, .f32⟩
  | .hbm, ⟨30, _⟩ => ⟨S100000x512, .f32⟩
  | .hbm, ⟨31, _⟩ => ⟨S100000x512, .f32⟩
  | .hbm, ⟨32, _⟩ => ⟨S_, .f32⟩
  | .hbm, ⟨33, _⟩ => ⟨S100000, .f32⟩
  | .hbm, ⟨34, _⟩ => ⟨S100000x1, .f32⟩
  | .hbm, ⟨35, _⟩ => ⟨S100000x512, .f32⟩
  | .hbm, ⟨36, _⟩ => ⟨S100000x512, .f32⟩
  | .hbm, ⟨37, _⟩ => ⟨S100000x256, .f32⟩
  | .hbm, ⟨38, _⟩ => ⟨S100000x512, .f32⟩
  | .hbm, ⟨39, _⟩ => ⟨S1x100000x512, .f32⟩
  | .hbm, ⟨40, _⟩ => ⟨S1x100000x512, .f32⟩
  | .hbm, ⟨41, _⟩ => ⟨S2x100000x512, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  transposes_S512x256_S256x512_1_0 : S512x256.Transposes [1, 0] S256x512
  reducesTo_S100000x512_S100000_d1 : S100000x512.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  concatenates_S100000x256_S100000x256_S100000x512_d1 : Shape.Concatenates [S100000x256, S100000x256] S100000x512 1
  bcast_S100000x512_S1x100000x512_1_2 : S100000x512.BroadcastsInDim S1x100000x512 (![1, 2] : Fin 2 → Fin S1x100000x512.rank)
  concatenates_S1x100000x512_S1x100000x512_S2x100000x512_d0 : Shape.Concatenates [S1x100000x512, S1x100000x512] S2x100000x512 0
  dot_S100000x256_S256x512_S100000x512_1_0_0_1_n_n_wf : DotDims.WF S100000x256 S256x512 S100000x512 [1] [0] [0] [1] [] []
  dot_S100000x512_S512x256_S100000x256_1_0_0_1_n_n_wf : DotDims.WF S100000x512 S512x256 S100000x256 [1] [0] [0] [1] [] []

variable [Facts₀]

def dot_S100000x256_S256x512_S100000x512_1_0_0_1_n_n : DotDims S100000x256 S256x512 S100000x512 where
  lhsContracting := [1]
  rhsContracting := [0]
  lhsNonContracting := [0]
  rhsNonContracting := [1]
  lhsBatch := []
  rhsBatch := []
  wf := dot_S100000x256_S256x512_S100000x512_1_0_0_1_n_n_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf

class Facts : Prop extends Facts₀ where

variable [Facts]
-- ==== Proof.SoftmaxSpec.lean ====
/-
  The specification. For one query row `q` (256 entries) and one memory table `M` (512 slots of 256 entries):
  the scores are the inner products of `q` with the slots, the addressing weights are the softmax of the scores
  along the slots (the exponentials of the scores less their maximum, divided by their sum), and what the row reads
  is the weighted sum of the slots. An output row is the query row followed by what it reads. The result stacks
  the output rows against the first table on the output rows against the second.
  Everything is over the extended reals; the maximum starts from the value of the bit pattern of minus infinity,
  kept as a pattern.
-/
import Idealize.ShloMosaic.PureOps.Ideal
import Idealize.ShloMosaic.Lib.ValueIdx
import Mathlib.Data.Finset.Fold

noncomputable section

namespace Cert.SoftmaxSpec

open Idealize.ShloMosaic Idealize.ShloMosaic.ValueIdx

/-- The value a row maximum starts from: the f32 pattern of minus infinity. -/
abbrev floor : EReal := Ideal.ofBits .f32 0xFF800000#32

/-- The score of slot `s`: the inner product of the query row with the slot. -/
def score (q : Fin 256 → EReal) (M : Fin 512 → Fin 256 → EReal) (s : Fin 512) : EReal :=
  ∑ k : Fin 256, q k * M s k

/-- The largest score of a row. -/
def rowMax (sc : Fin 512 → EReal) : EReal := (Finset.univ : Finset (Fin 512)).fold max floor sc

/-- The exponential of a score less the row's maximum. -/
def expo (sc : Fin 512 → EReal) (s : Fin 512) : EReal := Ideal.exp (sc s - rowMax sc)

/-- The softmax weight of slot `s`. -/
def weight (sc : Fin 512 → EReal) (s : Fin 512) : EReal := Ideal.div (expo sc s) (∑ s' : Fin 512, expo sc s')

/-- What the row reads from the table: the slots summed with their weights. -/
def attend (q : Fin 256 → EReal) (M : Fin 512 → Fin 256 → EReal) (d : Fin 256) : EReal :=
  ∑ s : Fin 512, weight (score q M) s * M s d

/-- An output row: the query row, then what it reads. -/
def outRow (q : Fin 256 → EReal) (M : Fin 512 → Fin 256 → EReal) (col : Fin 512) : EReal :=
  if h : col.val < 256 then q ⟨col.val, h⟩ else attend q M ⟨col.val - 256, by omega⟩

/-- The whole result at table `a`, row `r`, column `col`, of the query array and the two tables. -/
def result (Q : (⟨2, ![100000, 256]⟩ : Shape).Idx → EReal) (A B : (⟨2, ![512, 256]⟩ : Shape).Idx → EReal)
    (a : Fin 2) (r : Fin 100000) (col : Fin 512) : EReal :=
  outRow (fun k => Q (ix2 r k)) (fun s k => (if a.val = 0 then A else B) (ix2 s k)) col

/-- A maximum folded from `b` is at least `b`: taking the maximum with `b` once more changes nothing. -/
theorem max_fold_absorb (b : EReal) (f : Fin 512 → EReal) :
    max b ((Finset.univ : Finset (Fin 512)).fold max b f) = (Finset.univ : Finset (Fin 512)).fold max b f :=
  max_eq_right (by rw [Finset.le_fold_max]; exact Or.inl le_rfl)

end Cert.SoftmaxSpec

end
-- ==== Proof.RefRows.lean ====
/-
  The reference program read row by row. For a query row and a memory table the program forms the row's scores
  (inner products with the slots), their maximum (a fold of max from the pattern of minus infinity, then one more
  maximum with that same value, which changes nothing), the exponentials of the scores less the maximum, their sum
  (from zero), the quotients (the softmax weights), the weighted sum of the slots, and the row: the query row followed
  by what it reads. It does so against each of the two tables and stacks the two arrays of rows. Each stage, read at
  an index, is the matching function of the specification; the last theorem says so of the result.
-/
import proofs.«181632_j35742717837916_2_alg».proof.Proof.RefRead
import proofs.«181632_j35742717837916_2_alg».proof.Proof.SoftmaxSpec
import Idealize.ShloMosaic.Lib.ValueIdx
import Idealize.ShloMosaic.Lib.Pipeline.Value
import Idealize.ShloMosaic.PureOps.Ideal.Laws

noncomputable section

namespace Cert.RefRows

open Idealize.ShloMosaic Idealize.ShloMosaic.ValueIdx Cert.ReferenceIdeal Cert.ReferenceIdeal.ReadP

/-- The query array and a table, as the arguments of the program are typed. -/
abbrev QTy : Type := (⟨S100000x256, .f32⟩ : BufTy).Contents (Elt Ideal)
abbrev MTy : Type := (⟨S512x256, .f32⟩ : BufTy).Contents (Elt Ideal)

/-- Row `r` of the query array. -/
abbrev qrow (x0 : QTy) (r : Fin 100000) : Fin 256 → EReal := fun k => x0 (ix2 r k)
/-- A table as slots of entries. -/
abbrev slots (x1 : MTy) : Fin 512 → Fin 256 → EReal := fun s k => x1 (ix2 s k)
/-- The scores of row `r` against a table. -/
abbrev scores (x0 : QTy) (x1 : MTy) (r : Fin 100000) : Fin 512 → EReal :=
  SoftmaxSpec.score (qrow x0 r) (slots x1)

/-! ## The scores -/

/-- The first product, at row `r` and slot `s`: the inner product of the query row with the slot (the table enters
    transposed, so the slot is read along its entries). -/
theorem score_eq (x0 : QTy) (x1 : MTy) (r : Fin 100000) (s : Fin 512) :
    val_main_v1 (F := Ideal) x0 x1 (ix2 r s) = scores x0 x1 r s := by
  rw [val_main_v1_apply]
  show _ = ∑ k : Fin 256, x0 (ix2 r k) * x1 (ix2 s k)
  refine Finset.sum_congr rfl fun k _ => ?_
  rw [val_main_v0_apply]
  have e1 : lidx_main_v1 (ix2 r s) k = ix2 r k :=
    funext fun a => by match a with | ⟨0, _⟩ => rfl | ⟨1, _⟩ => rfl
  have e2 : idx_main_v0 (ridx_main_v1 (ix2 r s) k) = ix2 s k :=
    funext fun a => by match a with | ⟨0, _⟩ => rfl | ⟨1, _⟩ => rfl
  rw [e1, e2]

/-! ## The row maximum -/

/-- Over row `r`, the index with slot coordinate `s` inserted is `(r, s)`. -/
theorem lift_row (h : S100000x512.Reduces [1] S100000) (r : Fin 100000) (s : Fin 512) :
    h.lift (ix1 r) s = ix2 r s :=
  funext fun a => Fin.ext (by match a with | ⟨0, _⟩ => rfl | ⟨1, _⟩ => rfl)

/-- A maximum taken along the slots of a 100000 by 512 array, at row `r`: the fold of max over the row's entries,
    from the initial value. (max commutes and associates, so the order of the fold does not matter.) -/
theorem reduce_row (y : S100000x512.Idx → EReal) (c : S_.Idx → EReal) (r : Fin 100000) :
    Host.reduce (FloatOps.maximumf (F := Ideal) (φ := .f32)) y c Gen.reducesTo_S100000x512_S100000_d1 Gen.h_S_ (ix1 r)
      = (Finset.univ : Finset (Fin 512)).fold max (c (Shape.Idx.first Gen.h_S_)) (fun s => y (ix2 r s)) := by
  have h : S100000x512.Reduces [1] S100000 := by decide
  rw [Host.reduce_eq_fold_single (FloatOps.maximumf (F := Ideal) (φ := .f32)) y c
    Gen.reducesTo_S100000x512_S100000_d1 h Gen.h_S_ (ix1 r)]
  have ef : (y ∘ h.lift (ix1 r)) = fun s : Fin 512 => y (ix2 r s) :=
    funext fun s => by
      show y (h.lift (ix1 r) s) = _
      rw [lift_row h r s]
  rw [ef]
  rfl

/-- The fold stage at row `r`: the largest score of the row, folded from the value of the pattern of minus
    infinity. -/
theorem fold_eq (x0 : QTy) (x1 : MTy) (r : Fin 100000) :
    val_main_v2 (F := Ideal) x0 x1 (ix1 r) = SoftmaxSpec.rowMax (scores x0 x1 r) := by
  have ef : (fun s : Fin 512 => val_main_v1 (F := Ideal) x0 x1 (ix2 r s)) = scores x0 x1 r :=
    funext fun s => score_eq x0 x1 r s
  unfold SoftmaxSpec.rowMax
  rw [← ef]
  exact reduce_row (val_main_v1 (F := Ideal) x0 x1) (val_main_cst (F := Ideal)) r

/-- The maximum stage at row `r`: the program takes the maximum of the fold with the fold's own initial value once
    more, which changes nothing. -/
theorem rowMax_eq (x0 : QTy) (x1 : MTy) (r : Fin 100000) :
    val_main_v4 (F := Ideal) x0 x1 (ix1 r) = SoftmaxSpec.rowMax (scores x0 x1 r) := by
  rw [val_main_v4_apply, val_main_v3_apply, val_main_cst_0_apply, fold_eq]
  exact SoftmaxSpec.max_fold_absorb _ _

/-! ## The exponentials, their sum, the weights -/

/-- The exponential stage at row `r` and slot `s`: the exponential of the score less the row's maximum (the
    maximum reaches every slot of the row through two broadcasts). -/
theorem expo_eq (x0 : QTy) (x1 : MTy) (r : Fin 100000) (s : Fin 512) :
    val_main_v8 (F := Ideal) x0 x1 (ix2 r s) = SoftmaxSpec.expo (scores x0 x1 r) s := by
  rw [val_main_v8_apply, val_main_v7_apply, val_main_v6_apply, val_main_v5_apply, Ideal.hostUnary_exp_def,
    Ideal.subf_def]
  have e : idx_main_v5 (idx_main_v6 (ix2 r s)) = ix1 r :=
    funext fun a => by match a with | ⟨0, _⟩ => rfl
  rw [e, rowMax_eq, score_eq]
  rfl

/-- The sum stage at row `r`: the sum of the row's exponentials (the program adds them to zero). -/
theorem expoSum_eq (x0 : QTy) (x1 : MTy) (r : Fin 100000) :
    val_main_v9 (F := Ideal) x0 x1 (ix1 r) = ∑ s : Fin 512, SoftmaxSpec.expo (scores x0 x1 r) s := by
  rw [val_main_v9_apply, val_main_cst_1_apply, Ideal.ofBits_def, Ideal.ofBits_zero_f32, zero_add]
  refine Finset.sum_congr rfl fun s _ => ?_
  have e : idx_main_v9 (ix1 r) s = ix2 r s :=
    funext fun a => by match a with | ⟨0, _⟩ => rfl | ⟨1, _⟩ => rfl
  rw [e, expo_eq]

/-- The quotient stage at row `r` and slot `s`: the softmax weight of the slot. -/
theorem weight_eq (x0 : QTy) (x1 : MTy) (r : Fin 100000) (s : Fin 512) :
    val_main_v12 (F := Ideal) x0 x1 (ix2 r s) = SoftmaxSpec.weight (scores x0 x1 r) s := by
  rw [val_main_v12_apply, val_main_v11_apply, val_main_v10_apply, Ideal.hostDivf_def]
  have e : idx_main_v10 (idx_main_v11 (ix2 r s)) = ix1 r :=
    funext fun a => by match a with | ⟨0, _⟩ => rfl
  rw [e, expoSum_eq, expo_eq]
  rfl

/-! ## What a row reads, and the row -/

/-- The second product at row `r` and entry `d`: the slots' entries `d` summed with the row's weights. -/
theorem attend_eq (x0 : QTy) (x1 : MTy) (r : Fin 100000) (d : Fin 256) :
    val_main_v13 (F := Ideal) x0 x1 (ix2 r d) = SoftmaxSpec.attend (qrow x0 r) (slots x1) d := by
  rw [val_main_v13_apply]
  show _ = ∑ s : Fin 512, SoftmaxSpec.weight (scores x0 x1 r) s * x1 (ix2 s d)
  refine Finset.sum_congr rfl fun s _ => ?_
  have e1 : lidx_main_v13 (ix2 r d) s = ix2 r s :=
    funext fun a => by match a with | ⟨0, _⟩ => rfl | ⟨1, _⟩ => rfl
  have e2 : ridx_main_v13 (ix2 r d) s = ix2 s d :=
    funext fun a => by match a with | ⟨0, _⟩ => rfl | ⟨1, _⟩ => rfl
  rw [e1, e2, weight_eq]

/-- The joined row at row `r` and column `col`: below 256 the query row's entry, from 256 on what the row reads, at
    the column less 256. -/
theorem row_eq (x0 : QTy) (x1 : MTy) (r : Fin 100000) (col : Fin 512) :
    val_main_v14 (F := Ideal) x0 x1 (ix2 r col) = SoftmaxSpec.outRow (qrow x0 r) (slots x1) col := by
  unfold val_main_v14 SoftmaxSpec.outRow
  by_cases h : col.val < 256
  · rw [dif_pos h]
    exact concatenate_pair_apply_left (1 : Fin S100000x512.rank) x0 (val_main_v13 (F := Ideal) x0 x1)
      Gen.concatenates_S100000x256_S100000x256_S100000x512_d1 (ix2 r col) rfl (ix2 r ⟨col.val, h⟩)
      (fun b => by match b with | ⟨0, _⟩ => rfl | ⟨1, _⟩ => rfl)
  · rw [dif_neg h]
    have hc : col.val - 256 < 256 := by have := col.isLt; omega
    refine (concatenate_pair_apply_right (1 : Fin S100000x512.rank) x0 (val_main_v13 (F := Ideal) x0 x1)
      Gen.concatenates_S100000x256_S100000x256_S100000x512_d1 (ix2 r col) rfl rfl (ix2 r ⟨col.val - 256, hc⟩)
      (fun b hb => by
        match b, hb with
        | ⟨0, _⟩, _ => rfl
        | ⟨1, _⟩, hb => exact absurd rfl hb)
      (by show col.val - 256 + 256 = col.val; omega)).trans ?_
    exact attend_eq x0 x1 r ⟨col.val - 256, hc⟩

/-! ## The two tables, stacked -/

/-- The stages against the second table are the stages against the first, with the other table. -/
theorem v29_eq (x0 : QTy) (x2 : MTy) : val_main_v29 (F := Ideal) x0 x2 = val_main_v14 (F := Ideal) x0 x2 := rfl

/-- The result at table `a`, row `r`, column `col`: the specification's. The stack reads its first piece at table
    0 and its second at table 1; each piece is the array of rows against that table with a unit axis in front. -/
theorem reference_eq (x0 : (⟨S100000x256, .f32⟩ : BufTy).Contents (Elt Ideal)) (x1 x2 : (⟨S512x256, .f32⟩ : BufTy).Contents (Elt Ideal))
    (a : Fin 2) (r : Fin 100000) (col : Fin 512) :
    ReadP.val_main_v32 (F := Ideal) x0 x1 x2 (ix3 a r col) = Cert.SoftmaxSpec.result x0 x1 x2 a r col := by
  unfold val_main_v32
  have e30 : idx_main_v30 (ix3 (0 : Fin 1) r col) = ix2 r col :=
    funext fun b => by match b with | ⟨0, _⟩ => rfl | ⟨1, _⟩ => rfl
  have e31 : idx_main_v31 (ix3 (0 : Fin 1) r col) = ix2 r col :=
    funext fun b => by match b with | ⟨0, _⟩ => rfl | ⟨1, _⟩ => rfl
  match a with
  | ⟨0, _⟩ =>
    refine (concatenate_pair_apply_left (0 : Fin S2x100000x512.rank) (val_main_v30 (F := Ideal) x0 x1)
      (val_main_v31 (F := Ideal) x0 x2) Gen.concatenates_S1x100000x512_S1x100000x512_S2x100000x512_d0
      (ix3 (⟨0, by decide⟩ : Fin 2) r col) rfl (ix3 (0 : Fin 1) r col)
      (fun b => by match b with | ⟨0, _⟩ => rfl | ⟨1, _⟩ => rfl | ⟨2, _⟩ => rfl)).trans ?_
    rw [val_main_v30_apply, e30]
    exact row_eq x0 x1 r col
  | ⟨1, _⟩ =>
    refine (concatenate_pair_apply_right (0 : Fin S2x100000x512.rank) (val_main_v30 (F := Ideal) x0 x1)
      (val_main_v31 (F := Ideal) x0 x2) Gen.concatenates_S1x100000x512_S1x100000x512_S2x100000x512_d0
      (ix3 (⟨1, by decide⟩ : Fin 2) r col) rfl rfl (ix3 (0 : Fin 1) r col)
      (fun b hb => by
        match b, hb with
        | ⟨0, _⟩, hb => exact absurd rfl hb
        | ⟨1, _⟩, _ => rfl
        | ⟨2, _⟩, _ => rfl)
      rfl).trans ?_
    rw [val_main_v31_apply, e31, v29_eq]
    exact row_eq x0 x2 r col

end Cert.RefRows

end
-- ==== Proof.KernelPieces.lean ====
/-
  What one run of the kernel body leaves in its output block, as ONE function of the two blocks it reads.
  The body runs two trips; trip `k` stores, into plane `k` of the output block, the query block in columns
  0 ≤ col < 256 and what the rows read from table `k` in columns 256 ≤ col < 512. The four stored pieces tile
  the block, and each is a restriction of the function `blockFn` below; so the block read back is `blockFn`.
-/
import proofs.«181632_j35742717837916_2_alg».proof.Proof.Gen.KernelIdeal.Frame
import Idealize.ShloMosaic.Lib.Pipeline.Value
import Idealize.ShloMosaic.Lib.ValueIdx

set_option maxRecDepth 16384

noncomputable section

namespace Cert.KernelIdeal.Body

open Cert.KernelIdeal Cert.KernelIdeal.Gen Idealize.ShloMosaic Idealize.ShloMosaic.TcCoe Idealize.ShloMosaic.ValueIdx
open Idealize.SL.Sem

variable {F : FTy → Type} [FloatOps F]

/-- Table `a` of the stacked pair of tables, as a block with a leading axis of extent one. -/
def tableAt (x1 : Vec F S2x512x256 .f32) (a : Fin 2) : Vec F S1x512x256 .f32 :=
  fun z => x1 (ix3 a (⟨(z 1).val, (z 1).isLt⟩ : Fin 512) (⟨(z 2).val, (z 2).isLt⟩ : Fin 256))

/-- The output block as a function of the query block `x0` and the stacked tables `x1`: at plane `a`, row `r`,
    the query row in the first 256 columns and what the row reads from table `a` in the last 256. -/
def blockFn (x0 : Vec F S2000x256 .f32) (x1 : Vec F S2x512x256 .f32) : S2x2000x512.Idx → Elt F .f32 := fun y =>
  if h : (y 2).val < 256 then
    k0_pay1 x0 (ix3 (0 : Fin 1) (⟨(y 1).val, (y 1).isLt⟩ : Fin 2000) (⟨(y 2).val, h⟩ : Fin 256))
  else
    k0_pay2 x0 (tableAt x1 ⟨(y 0).val, (y 0).isLt⟩)
      (ix3 (0 : Fin 1) (⟨(y 1).val, (y 1).isLt⟩ : Fin 2000)
        (⟨(y 2).val - 256, by have h2 : (y 2).val < 512 := (y 2).isLt; omega⟩ : Fin 256))

/-- The two pieces trip `k` stores (last first): what the rows read from table `k`, at columns from 256 of plane `k`;
    the query block, at columns from 0 of plane `k`. -/
theorem trip_pieces (𝒱 : Variants) (c : Dev nD) (bd : Option 𝒱.V) (i : grid0.Coords) (arg1 : Memref sig .tc .vmem S2000x256 .f32) (harg1 : arg1.IsWhole) (arg2 : Memref sig .tc .vmem S2x512x256 .f32) (harg2 : arg2.IsWhole) (arg3 : Memref sig .tc .vmem S2x2000x512 .f32) (harg3 : arg3.IsWhole) (v0 : Vec F S2000x256 .f32) (X : BufTy.Contents (Elt F) arg2.view.ty) (k : Fin k0_t1_loop.trips) :
    tripL_k0_t1 (F := F) 𝒱 c bd i arg1 harg1 arg2 harg2 arg3 harg3 v0 X k
      = [⟨Rect.unit (s := S2x2000x512) (k0_off3 k) S1x2000x256.size (k0_off3_inb k),
            k0_pay2 v0 (View.readAt (Elt F) arg2.view (Rect.unit (s := S2x512x256) (k0_off1 k) S1x512x256.size (k0_off1_inb k)).toLoadRect X)⟩,
          ⟨Rect.unit (s := S2x2000x512) (k0_off2 k) S1x2000x256.size (k0_off2_inb k), k0_pay1 v0⟩] := by
  unfold tripL_k0_t1 trip_k0_t1
  rfl

/-- The piece of the query block is `blockFn` on its rectangle. -/
theorem query_piece (x0 : Vec F S2000x256 .f32) (x1 : Vec F S2x512x256 .f32) (k : Fin k0_t1_loop.trips)
    (x : (Rect.unit (s := S2x2000x512) (k0_off2 k) S1x2000x256.size (k0_off2_inb k)).shape.Idx) :
    k0_pay1 x0 x = blockFn x0 x1 ((Rect.unit (s := S2x2000x512) (k0_off2 k) S1x2000x256.size (k0_off2_inb k)).emb x) := by
  have h0 : (x 0).val < 1 := (x 0).isLt
  have h2 : (x 2).val < 256 := (x 2).isLt
  have o1 : k0_off2 k 1 = 0 := congrFun (k0_off2_eq k) 1
  have o2 : k0_off2 k 2 = 0 := congrFun (k0_off2_eq k) 2
  have e1 : (((Rect.unit (s := S2x2000x512) (k0_off2 k) S1x2000x256.size (k0_off2_inb k)).emb x) 1).val = (x 1).val := by
    show k0_off2 k 1 + 1 * (x 1).val = (x 1).val; omega
  have e2 : (((Rect.unit (s := S2x2000x512) (k0_off2 k) S1x2000x256.size (k0_off2_inb k)).emb x) 2).val = (x 2).val := by
    show k0_off2 k 2 + 1 * (x 2).val = (x 2).val; omega
  unfold blockFn
  rw [dif_pos (by rw [e2]; exact h2)]
  refine congrArg (k0_pay1 x0) (funext fun d => Fin.ext ?_)
  match d with
  | ⟨0, _⟩ => show (x 0).val = 0; omega
  | ⟨1, _⟩ => exact e1.symm
  | ⟨2, _⟩ => exact e2.symm

/-- The piece read from table `k` is `blockFn` on its rectangle. -/
theorem read_piece (x0 : Vec F S2000x256 .f32) (x1 : Vec F S2x512x256 .f32) (arg2 : Memref sig .tc .vmem S2x512x256 .f32) (harg2 : arg2.IsWhole)
    (k : Fin k0_t1_loop.trips)
    (x : (Rect.unit (s := S2x2000x512) (k0_off3 k) S1x2000x256.size (k0_off3_inb k)).shape.Idx) :
    k0_pay2 x0 (View.readAt (Elt F) arg2.view (Rect.unit (s := S2x512x256) (k0_off1 k) S1x512x256.size (k0_off1_inb k)).toLoadRect (harg2.unread x1)) x
      = blockFn x0 x1 ((Rect.unit (s := S2x2000x512) (k0_off3 k) S1x2000x256.size (k0_off3_inb k)).emb x) := by
  have hk : k.val < 2 := Nat.lt_of_lt_of_le k.isLt k0_t1_abs.2.1
  have h0 : (x 0).val < 1 := (x 0).isLt
  have h2 : (x 2).val < 256 := (x 2).isLt
  have o0 : k0_off3 k 0 = k.val := congrFun (k0_off3_eq k) 0
  have o1 : k0_off3 k 1 = 0 := congrFun (k0_off3_eq k) 1
  have o2 : k0_off3 k 2 = 256 := congrFun (k0_off3_eq k) 2
  have q0 : k0_off1 k 0 = k.val := congrFun (k0_off1_eq k) 0
  have q1 : k0_off1 k 1 = 0 := congrFun (k0_off1_eq k) 1
  have q2 : k0_off1 k 2 = 0 := congrFun (k0_off1_eq k) 2
  have e0 : (((Rect.unit (s := S2x2000x512) (k0_off3 k) S1x2000x256.size (k0_off3_inb k)).emb x) 0).val = k.val := by
    show k0_off3 k 0 + 1 * (x 0).val = k.val; omega
  have e1 : (((Rect.unit (s := S2x2000x512) (k0_off3 k) S1x2000x256.size (k0_off3_inb k)).emb x) 1).val = (x 1).val := by
    show k0_off3 k 1 + 1 * (x 1).val = (x 1).val; omega
  have e2 : (((Rect.unit (s := S2x2000x512) (k0_off3 k) S1x2000x256.size (k0_off3_inb k)).emb x) 2).val = 256 + (x 2).val := by
    show k0_off3 k 2 + 1 * (x 2).val = 256 + (x 2).val; omega
  unfold blockFn
  rw [dif_neg (by rw [e2]; omega)]
  have hT : View.readAt (Elt F) arg2.view (Rect.unit (s := S2x512x256) (k0_off1 k) S1x512x256.size (k0_off1_inb k)).toLoadRect (harg2.unread x1)
      = tableAt x1 ⟨(((Rect.unit (s := S2x2000x512) (k0_off3 k) S1x2000x256.size (k0_off3_inb k)).emb x) 0).val,
          (((Rect.unit (s := S2x2000x512) (k0_off3 k) S1x2000x256.size (k0_off3_inb k)).emb x) 0).isLt⟩ := by
    rw [View.readAt_eq_ld, harg2.read_unread]
    funext z
    have z0 : (z 0).val < 1 := (z 0).isLt
    show x1 _ = x1 _
    refine congrArg x1 (funext fun d => Fin.ext ?_)
    match d with
    | ⟨0, _⟩ =>
      show k0_off1 k 0 + 1 * (z 0).val = (((Rect.unit (s := S2x2000x512) (k0_off3 k) S1x2000x256.size (k0_off3_inb k)).emb x) 0).val
      rw [e0]; omega
    | ⟨1, _⟩ => show k0_off1 k 1 + 1 * (z 1).val = (z 1).val; omega
    | ⟨2, _⟩ => show k0_off1 k 2 + 1 * (z 2).val = (z 2).val; omega
  rw [hT]
  refine congrArg (k0_pay2 x0 _) (funext fun d => Fin.ext ?_)
  match d with
  | ⟨0, _⟩ => show (x 0).val = 0; omega
  | ⟨1, _⟩ => exact e1.symm
  | ⟨2, _⟩ => show (x 2).val = _ - 256; rw [e2]; omega

/-- Every piece of the trips before `n` is `blockFn` on its rectangle: by induction over the trips. -/
theorem pieces_agree (x0 : Vec F S2000x256 .f32) (x1 : Vec F S2x512x256 .f32)
    (𝒱 : Variants) (c : Dev nD) (bd : Option 𝒱.V) (i : grid0.Coords) (arg1 : Memref sig .tc .vmem S2000x256 .f32) (harg1 : arg1.IsWhole) (arg2 : Memref sig .tc .vmem S2x512x256 .f32) (harg2 : arg2.IsWhole) (arg3 : Memref sig .tc .vmem S2x2000x512 .f32) (harg3 : arg3.IsWhole) :
    ∀ (n : ℕ), ∀ p ∈ pb_k0_t1 (F := F) 𝒱 c bd i arg1 harg1 arg2 harg2 arg3 harg3 x0 (harg2.unread x1) n,
      ∀ x : p.1.shape.Idx, p.2 x = blockFn x0 x1 (p.1.emb x)
  | 0 => fun p hp => absurd hp (by rw [pb_k0_t1.eq_1]; exact List.not_mem_nil)
  | n + 1 => fun p hp => by
    rw [pb_k0_t1.eq_2] at hp
    unfold pb_k0_t1Step at hp
    split at hp
    · next hn =>
      rcases List.mem_append.mp hp with hp | hp
      · rw [trip_pieces] at hp
        rcases List.mem_cons.mp hp with rfl | hp
        · exact fun x => read_piece x0 x1 arg2 harg2 ⟨n, hn⟩ x
        · rcases List.mem_cons.mp hp with rfl | hp
          · exact fun x => query_piece x0 x1 ⟨n, hn⟩ x
          · exact absurd hp List.not_mem_nil
      · exact pieces_agree x0 x1 𝒱 c bd i arg1 harg1 arg2 harg2 arg3 harg3 n p hp
    · exact pieces_agree x0 x1 𝒱 c bd i arg1 harg1 arg2 harg2 arg3 harg3 n p hp

theorem hz_query : (![0, 0] : Fin 2 → Nat) = fun _ => 0 := funext fun a => by fin_cases a <;> rfl

/-- THE BLOCK a run of the body leaves in the output's staging buffer is `blockFn` of the blocks it read. -/
theorem out_eq (c : Dev nD) (i : grid0.Coords) (arg1 : Memref sig .tc .vmem S2000x256 .f32) (harg1 : arg1.IsWhole) (arg2 : Memref sig .tc .vmem S2x512x256 .f32) (harg2 : arg2.IsWhole) (arg3 : Memref sig .tc .vmem S2x2000x512 .f32) (harg3 : arg3.IsWhole)
    (x0 : Vec F S2000x256 .f32) (x1 : Vec F S2x512x256 .f32) :
    out0_A_2 c i arg1 harg1 arg2 harg2 arg3 harg3 x0 x1 = blockFn x0 x1 := by
  funext y
  unfold out0_A_2
  rw [View.read_writes_junk_apply_eq_canon]
  refine View.canon_apply_of_pieces (blockFn x0 x1) _ ?_ y (cover0_A_2 c i arg1 harg1 arg2 harg2 arg3 harg3 x0 x1 y)
  have hv0 : View.readAt (Elt F) arg1.view (Rect.unit (s := S2000x256) ![0, 0] S2000x256.size inb_S2000x256_S2000x256_0_0).toLoadRect (harg1.unread x0) = x0 := by
    rw [View.readAt_eq_ld, harg1.read_unread, View.ld_unit_zero (S := S2000x256) hz_query]
  unfold kernelRun0_A
  dsimp only
  rw [hv0]
  exact pieces_agree x0 x1 Variants.none c none i arg1 harg1 arg2 harg2 arg3 harg3 _

end Cert.KernelIdeal.Body

end
-- ==== Proof.KernelRows.lean ====
/-
  The body's two stored values, read at an index over the extended reals.
  The first is the query block itself. The second is, row by row, the softmax-weighted sum of the table's slots:
  the scores are a matrix product contracted over the 256 entries of a query row and of a slot (the change of
  float format in front of it is the identity here), the row maximum is a fold of `max` from the pattern of
  minus infinity, the normaliser is the sum of the exponentials, and the last product is contracted over the
  512 slots.
-/
import proofs.«181632_j35742717837916_2_alg».proof.Proof.Gen.KernelIdeal.Skeleton
import proofs.«181632_j35742717837916_2_alg».proof.Proof.SoftmaxSpec
import Idealize.ShloMosaic.Lib.Pipeline.Value
import Idealize.ShloMosaic.Lib.ValueIdx
import Idealize.ShloMosaic.PureOps.Ideal.Laws

set_option maxRecDepth 16384

noncomputable section

namespace Cert.KernelIdeal.Rows

open Cert.KernelIdeal Cert.KernelIdeal.Gen Idealize.ShloMosaic Idealize.ShloMosaic.ValueIdx Cert.SoftmaxSpec

/-! ## The two matrix products, the two row reductions and the column broadcast, each at an index -/

/-- The operand indices of the score product: the row of the left operand and the slot of the right are the
    output's coordinates, their entry is the contraction index. -/
theorem scores_lhs0 (i : S2000x512.Idx) (q : dot_S2000x256_S512x256_S2000x512_1_1_0_0_n_n.contr.Idx) : (dot_S2000x256_S512x256_S2000x512_1_1_0_0_n_n.lhsIdx i q 0).val = (i 0).val := by
  unfold DotDims.lhsIdx
  rw [dif_neg (show ¬(0 : Fin S2000x256.rank) ∈ dot_S2000x256_S512x256_S2000x512_1_1_0_0_n_n.lhsBatch by decide), dif_pos (show (0 : Fin S2000x256.rank) ∈ dot_S2000x256_S512x256_S2000x512_1_1_0_0_n_n.lhsNonContracting by decide)]
  rfl
theorem scores_lhs1 (i : S2000x512.Idx) (q : dot_S2000x256_S512x256_S2000x512_1_1_0_0_n_n.contr.Idx) : (dot_S2000x256_S512x256_S2000x512_1_1_0_0_n_n.lhsIdx i q 1).val = (q ⟨0, by decide⟩).val :=
  dot_S2000x256_S512x256_S2000x512_1_1_0_0_n_n.lhsIdx_val_of_single rfl i q
theorem scores_rhs0 (i : S2000x512.Idx) (q : dot_S2000x256_S512x256_S2000x512_1_1_0_0_n_n.contr.Idx) : (dot_S2000x256_S512x256_S2000x512_1_1_0_0_n_n.rhsIdx i q 0).val = (i 1).val := by
  unfold DotDims.rhsIdx
  rw [dif_neg (show ¬(0 : Fin S512x256.rank) ∈ dot_S2000x256_S512x256_S2000x512_1_1_0_0_n_n.rhsBatch by decide), dif_pos (show (0 : Fin S512x256.rank) ∈ dot_S2000x256_S512x256_S2000x512_1_1_0_0_n_n.rhsNonContracting by decide)]
  rfl
theorem scores_rhs1 (i : S2000x512.Idx) (q : dot_S2000x256_S512x256_S2000x512_1_1_0_0_n_n.contr.Idx) : (dot_S2000x256_S512x256_S2000x512_1_1_0_0_n_n.rhsIdx i q 1).val = (q ⟨0, by decide⟩).val :=
  dot_S2000x256_S512x256_S2000x512_1_1_0_0_n_n.rhsIdx_val_of_single rfl i q

/-- The contraction index of the score product is the entry `k` of a query row and of a slot. -/
theorem scores_apply (a : FVec Ideal S2000x256 .bf16) (b : FVec Ideal S512x256 .bf16) (r : Fin 2000) (s : Fin 512) :
    matmul (F := Ideal) dot_S2000x256_S512x256_S2000x512_1_1_0_0_n_n none a b (constant (F := Ideal) S2000x512 .f32 0x00000000#32) (ix2 r s)
      = ∑ k : Fin 256, a (ix2 r k) * b (ix2 s k) := by
  refine (Ideal.matmul_constant_zero_apply dot_S2000x256_S512x256_S2000x512_1_1_0_0_n_n none a b (ix2 r s)).trans ?_
  rw [← Equiv.sum_comp (contrEquiv1 dot_S2000x256_S512x256_S2000x512_1_1_0_0_n_n 256 rfl rfl).symm]
  refine Finset.sum_congr rfl fun k _ => ?_
  have hk := contrEquiv1_symm_val dot_S2000x256_S512x256_S2000x512_1_1_0_0_n_n 256 rfl rfl k
  have el : dot_S2000x256_S512x256_S2000x512_1_1_0_0_n_n.lhsIdx (ix2 r s) ((contrEquiv1 dot_S2000x256_S512x256_S2000x512_1_1_0_0_n_n 256 rfl rfl).symm k) = ix2 r k :=
    funext fun d => Fin.ext (by
      match d with
      | ⟨0, _⟩ => exact scores_lhs0 _ _
      | ⟨1, _⟩ => exact (scores_lhs1 _ _).trans hk)
  have er : dot_S2000x256_S512x256_S2000x512_1_1_0_0_n_n.rhsIdx (ix2 r s) ((contrEquiv1 dot_S2000x256_S512x256_S2000x512_1_1_0_0_n_n 256 rfl rfl).symm k) = ix2 s k :=
    funext fun d => Fin.ext (by
      match d with
      | ⟨0, _⟩ => exact scores_rhs0 _ _
      | ⟨1, _⟩ => exact (scores_rhs1 _ _).trans hk)
  rw [el, er]

/-- The operand indices of the read product: the row of the left operand and the entry of the right are the
    output's coordinates, the slot is the contraction index. -/
theorem reads_lhs0 (i : S2000x256.Idx) (q : dot_S2000x512_S512x256_S2000x256_1_0_0_1_n_n.contr.Idx) : (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem reads_lhs1 (i : S2000x256.Idx) (q : dot_S2000x512_S512x256_S2000x256_1_0_0_1_n_n.contr.Idx) : (dot_S2000x512_S512x256_S2000x256_1_0_0_1_n_n.lhsIdx i q 1).val = (q ⟨0, by decide⟩).val :=
  dot_S2000x512_S512x256_S2000x256_1_0_0_1_n_n.lhsIdx_val_of_single rfl i q
theorem reads_rhs0 (i : S2000x256.Idx) (q : dot_S2000x512_S512x256_S2000x256_1_0_0_1_n_n.contr.Idx) : (dot_S2000x512_S512x256_S2000x256_1_0_0_1_n_n.rhsIdx i q 0).val = (q ⟨0, by decide⟩).val :=
  dot_S2000x512_S512x256_S2000x256_1_0_0_1_n_n.rhsIdx_val_of_single rfl i q
theorem reads_rhs1 (i : S2000x256.Idx) (q : dot_S2000x512_S512x256_S2000x256_1_0_0_1_n_n.contr.Idx) : (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The contraction index of the read product is the slot `s`. -/
theorem reads_apply (a : FVec Ideal S2000x512 .bf16) (b : FVec Ideal S512x256 .bf16) (r : Fin 2000) (d : Fin 256) :
    matmul (F := Ideal) dot_S2000x512_S512x256_S2000x256_1_0_0_1_n_n none a b (constant (F := Ideal) S2000x256 .f32 0x00000000#32) (ix2 r d)
      = ∑ s : Fin 512, a (ix2 r s) * b (ix2 s d) := by
  refine (Ideal.matmul_constant_zero_apply dot_S2000x512_S512x256_S2000x256_1_0_0_1_n_n none a b (ix2 r d)).trans ?_
  rw [← Equiv.sum_comp (contrEquiv1 dot_S2000x512_S512x256_S2000x256_1_0_0_1_n_n 512 rfl rfl).symm]
  refine Finset.sum_congr rfl fun k _ => ?_
  have hk := contrEquiv1_symm_val dot_S2000x512_S512x256_S2000x256_1_0_0_1_n_n 512 rfl rfl k
  have el : dot_S2000x512_S512x256_S2000x256_1_0_0_1_n_n.lhsIdx (ix2 r d) ((contrEquiv1 dot_S2000x512_S512x256_S2000x256_1_0_0_1_n_n 512 rfl rfl).symm k) = ix2 r k :=
    funext fun e => Fin.ext (by
      match e with
      | ⟨0, _⟩ => exact reads_lhs0 _ _
      | ⟨1, _⟩ => exact (reads_lhs1 _ _).trans hk)
  have er : dot_S2000x512_S512x256_S2000x256_1_0_0_1_n_n.rhsIdx (ix2 r d) ((contrEquiv1 dot_S2000x512_S512x256_S2000x256_1_0_0_1_n_n 512 rfl rfl).symm k) = ix2 k d :=
    funext fun e => Fin.ext (by
      match e with
      | ⟨0, _⟩ => exact (reads_rhs0 _ _).trans hk
      | ⟨1, _⟩ => exact reads_rhs1 _ _)
  rw [el, er]

/-- Inserting the slot `s` into the row index `r` gives the entry `(r, s)`. -/
theorem lift_row (r : Fin 2000) (s : Fin 512) : reduces_S2000x512_S2000.lift (ix1 r) s = ix2 r s :=
  funext fun d => Fin.ext (by match d with | ⟨0, _⟩ => rfl | ⟨1, _⟩ => rfl)

/-- A row's maximum: the fold of `max` over its 512 entries from the pattern of minus infinity. -/
theorem rowmax_apply (v : FVec Ideal S2000x512 .f32) (r : Fin 2000) :
    multiReduction (F := Ideal) .maximumf [1] S2000 v 0xFF800000#32 reduces_S2000x512_S2000 (.inl rfl) rfl (ix1 r)
      = rowMax (fun s => v (ix2 r s)) := by
  refine (Ideal.multiReduction_maximumf_single v 0xFF800000#32 reduces_S2000x512_S2000 (.inl rfl) rfl (ix1 r)).trans ?_
  show (Finset.univ : Finset (Fin 512)).fold max floor (fun s => v (reduces_S2000x512_S2000.lift (ix1 r) s)) = _
  unfold rowMax
  exact congrArg (fun f : Fin 512 → EReal => (Finset.univ : Finset (Fin 512)).fold max floor f) (funext fun s => congrArg v (lift_row r s))

/-- A row's sum over its 512 entries. -/
theorem rowsum_apply (v : FVec Ideal S2000x512 .f32) (r : Fin 2000) :
    multiReduction (F := Ideal) .add [1] S2000 v 0x00000000#32 reduces_S2000x512_S2000 (.inl rfl) rfl (ix1 r)
      = ∑ s : Fin 512, v (ix2 r s) := by
  refine (Ideal.multiReduction_add_single v 0x00000000#32 reduces_S2000x512_S2000 (.inl rfl) rfl (ix1 r)).trans ?_
  show ∑ s : Fin 512, v (reduces_S2000x512_S2000.lift (ix1 r) s) = _
  exact Finset.sum_congr rfl fun s _ => congrArg v (lift_row r s)

/-- A per-row value spread along the row: entry `(r, s)` of the column broadcast is the value of row `r`. -/
theorem column_apply (v : FVec Ideal S2000 .f32) (r : Fin 2000) (s : Fin 512) :
    broadcastTo S2000x512 (shapeCast S2000x1 v shapeCasts_S2000_S2000x1) broadcasts_S2000x1_S2000x512 (ix2 r s) = v (ix1 r) := by
  refine (broadcastTo_apply _ broadcasts_S2000x1_S2000x512 (ix2 r s) (ix2 r (0 : Fin 1)) (fun a => by
    match a with
    | ⟨0, _⟩ => show r.val = if (2000 : Nat) = 1 then 0 else r.val; rw [if_neg (by decide)]
    | ⟨1, _⟩ => show (0 : Nat) = if (1 : Nat) = 1 then 0 else s.val; rw [if_pos rfl])).trans ?_
  refine shapeCast_apply v shapeCasts_S2000_S2000x1 (ix2 r (0 : Fin 1)) (ix1 r) ?_
  rw [Shape.rowMajor_val_one, Shape.rowMajor_val_two]
  show r.val = r.val * 1 + 0
  omega

/-! ## The softmax of a block of scores -/

/-- The body's softmax of a block of scores, in the body's own operations. -/
def softmaxBlk (v9 : FVec Ideal S2000x512 .f32) : FVec Ideal S2000x512 .f32 :=
  have v10 : FVec Ideal S2000 .f32 := multiReduction .maximumf [1] S2000 v9 0xFF800000#32 reduces_S2000x512_S2000 (.inl rfl) rfl
  have v11 : FVec Ideal S2000x1 .f32 := shapeCast S2000x1 v10 shapeCasts_S2000_S2000x1
  have v12 : FVec Ideal S2000x512 .f32 := broadcastTo S2000x512 v11 broadcasts_S2000x1_S2000x512
  have v13 : FVec Ideal S2000x512 .f32 := subf v9 v12
  have v14 : FVec Ideal S2000x512 .f32 := exp v13
  have v15 : FVec Ideal S2000 .f32 := multiReduction .add [1] S2000 v14 0x00000000#32 reduces_S2000x512_S2000 (.inl rfl) rfl
  have v16 : FVec Ideal S2000x1 .f32 := shapeCast S2000x1 v15 shapeCasts_S2000_S2000x1
  have v17 : FVec Ideal S2000x512 .f32 := broadcastTo S2000x512 v16 broadcasts_S2000x1_S2000x512
  divf v14 v17

/-- The exponential of a score less its row's maximum. -/
theorem expo_apply (v9 : FVec Ideal S2000x512 .f32) (r : Fin 2000) (s : Fin 512) :
    exp (subf v9 (broadcastTo S2000x512 (shapeCast S2000x1 (multiReduction (F := Ideal) .maximumf [1] S2000 v9 0xFF800000#32 reduces_S2000x512_S2000 (.inl rfl) rfl) shapeCasts_S2000_S2000x1) broadcasts_S2000x1_S2000x512)) (ix2 r s)
      = expo (fun s' => v9 (ix2 r s')) s := by
  show Ideal.exp (v9 (ix2 r s) - broadcastTo S2000x512 (shapeCast S2000x1 (multiReduction (F := Ideal) .maximumf [1] S2000 v9 0xFF800000#32 reduces_S2000x512_S2000 (.inl rfl) rfl) shapeCasts_S2000_S2000x1) broadcasts_S2000x1_S2000x512 (ix2 r s)) = _
  rw [column_apply, rowmax_apply]
  rfl

/-- Entry `(r, s)` of the softmax of a block of scores is the weight of slot `s` among row `r`'s scores. -/
theorem softmaxBlk_apply (v9 : FVec Ideal S2000x512 .f32) (r : Fin 2000) (s : Fin 512) :
    softmaxBlk v9 (ix2 r s) = weight (fun s' => v9 (ix2 r s')) s := by
  unfold softmaxBlk
  dsimp only
  show Ideal.div (exp (subf v9 _) (ix2 r s)) (broadcastTo S2000x512 (shapeCast S2000x1 (multiReduction (F := Ideal) .add [1] S2000 (exp (subf v9 _)) 0x00000000#32 reduces_S2000x512_S2000 (.inl rfl) rfl) shapeCasts_S2000_S2000x1) broadcasts_S2000x1_S2000x512 (ix2 r s)) = _
  rw [column_apply, rowsum_apply, expo_apply]
  unfold weight
  exact congrArg _ (Finset.sum_congr rfl fun s' _ => expo_apply v9 r s')

/-! ## The two stored values -/

/-- The first stored value is the query block: entry `(0, r, d)` is the query block's `(r, d)`. -/
theorem pay1_apply (x0 : Vec Ideal S2000x256 .f32) (r : Fin 2000) (d : Fin 256) :
    k0_pay1 (F := Ideal) x0 (ix3 (0 : Fin 1) r d) = x0 (ix2 r d) := by
  unfold k0_pay1
  refine (shapeCast_addUnit_apply ![2000, 256] x0 shapeCasts_S2000x256_S1x2000x256 (ix3 (0 : Fin 1) r d)).trans ?_
  exact congrArg x0 (funext fun a => Fin.ext (by match a with | ⟨0, _⟩ => rfl | ⟨1, _⟩ => rfl))

/-- The table block without its leading unit axis: entry `(s, k)` is the block's `(0, s, k)`. -/
theorem table_apply (v6 : Vec Ideal S1x512x256 .f32) (s : Fin 512) (k : Fin 256) :
    shapeCast S512x256 v6 shapeCasts_S1x512x256_S512x256 (ix2 s k) = v6 (ix3 (0 : Fin 1) s k) := by
  refine (shapeCast_dropUnit_apply ![512, 256] v6 shapeCasts_S1x512x256_S512x256 (ix2 s k)).trans ?_
  exact congrArg v6 (funext fun a => Fin.ext (by match a with | ⟨0, _⟩ => rfl | ⟨1, _⟩ => rfl | ⟨2, _⟩ => rfl))

/-- The second stored value, in the stages above. -/
theorem pay2_eq (x0 : Vec Ideal S2000x256 .f32) (v6 : Vec Ideal S1x512x256 .f32) :
    k0_pay2 (F := Ideal) x0 v6
      = shapeCast S1x2000x256
          (matmul (F := Ideal) dot_S2000x512_S512x256_S2000x256_1_0_0_1_n_n none
            (truncf .bf16 (softmaxBlk (matmul (F := Ideal) dot_S2000x256_S512x256_S2000x512_1_1_0_0_n_n none (truncf .bf16 x0 bitsLt_bf16_f32)
              (truncf .bf16 (shapeCast S512x256 v6 shapeCasts_S1x512x256_S512x256) bitsLt_bf16_f32) (constant (F := Ideal) S2000x512 .f32 0x00000000#32))) bitsLt_bf16_f32)
            (truncf .bf16 (shapeCast S512x256 v6 shapeCasts_S1x512x256_S512x256) bitsLt_bf16_f32) (constant (F := Ideal) S2000x256 .f32 0x00000000#32))
          shapeCasts_S2000x256_S1x2000x256 := rfl

/-- The second stored value at `(0, r, d)`: what query row `r` reads from the table, at entry `d`. -/
theorem pay2_apply (x0 : Vec Ideal S2000x256 .f32) (v6 : Vec Ideal S1x512x256 .f32) (r : Fin 2000) (d : Fin 256) :
    k0_pay2 (F := Ideal) x0 v6 (ix3 (0 : Fin 1) r d)
      = attend (fun k => x0 (ix2 r k)) (fun s k => v6 (ix3 (0 : Fin 1) s k)) d := by
  rw [pay2_eq]
  refine (shapeCast_addUnit_apply ![2000, 256] _ shapeCasts_S2000x256_S1x2000x256 (ix3 (0 : Fin 1) r d)).trans ?_
  rw [show (fun a : Fin 2 => (ix3 (0 : Fin 1) r d) a.succ) = ix2 r d from
    funext fun a => Fin.ext (by match a with | ⟨0, _⟩ => rfl | ⟨1, _⟩ => rfl)]
  rw [reads_apply]
  unfold attend
  refine Finset.sum_congr rfl fun s _ => ?_
  show softmaxBlk _ (ix2 r s) * shapeCast S512x256 v6 shapeCasts_S1x512x256_S512x256 (ix2 s d) = _
  rw [softmaxBlk_apply, table_apply]
  refine congrArg (fun sc => weight sc s * v6 (ix3 (0 : Fin 1) s d)) (funext fun s' => ?_)
  rw [scores_apply]
  unfold score
  refine Finset.sum_congr rfl fun k _ => ?_
  show x0 (ix2 r k) * shapeCast S512x256 v6 shapeCasts_S1x512x256_S512x256 (ix2 s' k) = _
  rw [table_apply]

end Cert.KernelIdeal.Rows

end
-- ==== Proof.KernelArray.lean ====
/-
  From blocks to the array. Grid point `t` stages rows 2000·t … 2000·t + 1999 of the query array and the whole stacked
  pair of tables, and writes back the block of rows 2000·t … of both planes of the result. What it writes is the
  block of ONE function of the three argument arrays — the specification's `result` —, and the fifty blocks cover the
  result array; so the array ends holding that function.
-/
import proofs.«181632_j35742717837916_2_alg».proof.Proof.Gen.KernelIdeal.Value
import proofs.«181632_j35742717837916_2_alg».proof.Proof.KernelPieces
import proofs.«181632_j35742717837916_2_alg».proof.Proof.KernelRows
import proofs.«181632_j35742717837916_2_alg».proof.Proof.SoftmaxSpec
import Idealize.ShloMosaic.Lib.Pipeline.Value
import Idealize.ShloMosaic.Lib.StableHlo.Run
import Idealize.ShloMosaic.Lib.ValueIdx

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.SoftmaxSpec
open Idealize.ShloMosaic.Pipeline (Dat)

variable (m : (ℓ : Loc nD τ sig) → Buf (Elt Ideal) ℓ) (ρ : Dev nD → PrngReg)

/-- The result array as one function of the query array and the two tables. -/
def G (Q : S100000x256.Idx → EReal) (A B : S512x256.Idx → EReal) : S2x100000x512.Idx → EReal := fun i =>
  result Q A B ⟨(i 0).val, (i 0).isLt⟩ ⟨(i 1).val, (i 1).isLt⟩ ⟨(i 2).val, (i 2).isLt⟩

/-! ## One block is the block of `G`, over variables -/

/-- If `x0` is rows 2000·t … of `Q` and `x1` is the two tables stacked, the body's block at `(a, r, col)` is the result at
    `(a, 2000·t + r, col)`. -/
theorem block_is_result (Q : S100000x256.Idx → EReal) (A B : S512x256.Idx → EReal)
    (x0 : Vec Ideal S2000x256 .f32) (x1 : Vec Ideal S2x512x256 .f32) (t : ℕ)
    (h0 : ∀ (r : Fin 2000) (k : Fin 256) (r' : Fin 100000), r'.val = t * 2000 + r.val → x0 (ix2 r k) = Q (ix2 r' k))
    (h1 : ∀ (a : Fin 2) (s : Fin 512) (k : Fin 256), x1 (ix3 a s k) = (if a.val = 0 then A else B) (ix2 s k))
    (y : S2x2000x512.Idx) (a' : Fin 2) (r' : Fin 100000) (c' : Fin 512)
    (ha : a'.val = (y 0).val) (hr : r'.val = t * 2000 + (y 1).val) (hc : c'.val = (y 2).val) :
    Body.blockFn x0 x1 y = result Q A B a' r' c' := by
  unfold Body.blockFn result outRow
  by_cases h : (y 2).val < 256
  · rw [dif_pos h, dif_pos (show c'.val < 256 by omega), Rows.pay1_apply]
    refine (h0 _ _ r' hr).trans (congrArg Q (congrArg (ix2 r') (Fin.ext ?_)))
    show (y 2).val = c'.val
    omega
  · rw [dif_neg h, dif_neg (show ¬ c'.val < 256 by omega), Rows.pay2_apply]
    have hq : (fun k : Fin 256 => x0 (ix2 (⟨(y 1).val, (y 1).isLt⟩ : Fin 2000) k)) = fun k => Q (ix2 r' k) :=
      funext fun k => h0 _ k r' hr
    have hM : (fun (s : Fin 512) (k : Fin 256) => Body.tableAt x1 ⟨(y 0).val, (y 0).isLt⟩ (ix3 (0 : Fin 1) s k))
        = fun s k => (if a'.val = 0 then A else B) (ix2 s k) :=
      funext fun s => funext fun k => by
        show x1 (ix3 (⟨(y 0).val, (y 0).isLt⟩ : Fin 2) (⟨s.val, s.isLt⟩ : Fin 512) (⟨k.val, k.isLt⟩ : Fin 256)) = _
        rw [h1]
        show (if (y 0).val = 0 then A else B) (ix2 s k) = _
        rw [ha]
    have hd : (⟨(y 2).val - 256, by have h2 : (y 2).val < 512 := (y 2).isLt; omega⟩ : Fin 256) = ⟨c'.val - 256, by have := c'.isLt; omega⟩ :=
      Fin.ext (by show (y 2).val - 256 = c'.val - 256; omega)
    exact (congrArg (fun q => attend q _ _) hq).trans ((congrArg (fun M => attend _ M _) hM).trans (congrArg (attend _ _) hd))

/-! ## The staged blocks are rows of the arguments -/

/-- The printed index maps, decided over the fifty grid points: point `t` takes block `t` of the query rows and of the
    result rows, and block 0 on every other axis. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- The stacked pair of tables the region finds: plane 0 is the first table, plane 1 the second. -/
theorem stack_apply (c : Dev nD) (a : Fin 2) (s : Fin 512) (k : Fin 256) :
    (V m c main_v2 : S2x512x256.Idx → EReal) (ix3 a s k)
      = (if a.val = 0 then (m ((c : Thread nD τ).loc main_arg1) : S512x256.Idx → EReal) else m ((c : Thread nD τ).loc main_arg2)) (ix2 s k) := by
  have e : (V m c main_v2 : S2x512x256.Idx → EReal)
      = concatenate S2x512x256 0
          [⟨S1x512x256, broadcastInDim S1x512x256 ![1, 2] bcast_S512x256_S1x512x256_1_2 (m ((c : Thread nD τ).loc main_arg1) : S512x256.Idx → EReal)⟩,
           ⟨S1x512x256, broadcastInDim S1x512x256 ![1, 2] bcast_S512x256_S1x512x256_1_2 (m ((c : Thread nD τ).loc main_arg2) : S512x256.Idx → EReal)⟩]
          concatenates_S1x512x256_S1x512x256_S2x512x256_d0 := by
    dsimp only [Gen.V, Gen.hostOps0]; after_results
  rw [e]
  have hb : ∀ X : S512x256.Idx → EReal,
      broadcastInDim S1x512x256 ![1, 2] bcast_S512x256_S1x512x256_1_2 X (ix3 (0 : Fin 1) s k) = X (ix2 s k) := fun X =>
    broadcastInDim_apply _ bcast_S512x256_S1x512x256_1_2 X (ix3 (0 : Fin 1) s k) (ix2 s k) (fun d => match d with
      | ⟨0, _⟩ => by show s.val = if (512 : Nat) = 1 then 0 else s.val; rw [if_neg (by decide)]
      | ⟨1, _⟩ => by show k.val = if (256 : Nat) = 1 then 0 else k.val; rw [if_neg (by decide)])
  match a with
  | ⟨0, _⟩ =>
    refine (concatenate_pair_apply_left 0 _ _ concatenates_S1x512x256_S1x512x256_S2x512x256_d0 _ rfl (ix3 (0 : Fin 1) s k) (fun b => ?_)).trans ?_
    · match b with
      | ⟨0, _⟩ => rfl
      | ⟨1, _⟩ => rfl
      | ⟨2, _⟩ => rfl
    · rw [hb]; rfl
  | ⟨1, _⟩ =>
    refine (concatenate_pair_apply_right 0 _ _ concatenates_S1x512x256_S1x512x256_S2x512x256_d0 _ rfl rfl (ix3 (0 : Fin 1) s k) (fun b hne => ?_) rfl).trans ?_
    · match b with
      | ⟨0, _⟩ => exact absurd rfl hne
      | ⟨1, _⟩ => rfl
      | ⟨2, _⟩ => rfl
    · rw [hb]; rfl

/-- The query block at point `t` is rows 2000·t … of the query array. -/
theorem query_block (c : Dev nD) (t : Fin cfg0.N) (r : Fin 2000) (k : Fin 256) (r' : Fin 100000) (hr : r'.val = t.val * 2000 + r.val) :
    (iblk m c 0 t : Vec Ideal S2000x256 .f32) (ix2 r k) = (m ((c : Thread nD τ).loc main_arg0) : S100000x256.Idx → EReal) (ix2 r' k) := by
  obtain ⟨f00, f01, -⟩ := idx_facts t
  unfold iblk
  rw [View.read_apply]
  show V m c main_arg0 _ = _
  rw [V_main_arg0]
  refine congrArg (m ((c : Thread nD τ).loc main_arg0) : S100000x256.Idx → EReal) (funext fun a => Fin.ext ?_)
  match a with
  | ⟨0, _⟩ => show win0_0.index t (0 : Fin 2) * 2000 + 1 * r.val = r'.val; omega
  | ⟨1, _⟩ => show win0_0.index t (1 : Fin 2) * 256 + 1 * k.val = k.val; omega

/-- The table block at every point is the whole stacked pair. -/
theorem tables_block (c : Dev nD) (t : Fin cfg0.N) (a : Fin 2) (s : Fin 512) (k : Fin 256) :
    (iblk m c 1 t : Vec Ideal S2x512x256 .f32) (ix3 a s k)
      = (if a.val = 0 then (m ((c : Thread nD τ).loc main_arg1) : S512x256.Idx → EReal) else m ((c : Thread nD τ).loc main_arg2)) (ix2 s k) := by
  obtain ⟨-, -, f10, f11, f12, -⟩ := idx_facts t
  unfold iblk
  rw [View.read_apply]
  show V m c main_v2 _ = _
  refine Eq.trans (congrArg (V m c main_v2 : S2x512x256.Idx → EReal) (funext fun d => Fin.ext ?_)) (stack_apply m c a s k)
  match d with
  | ⟨0, _⟩ => show win0_1.index t (0 : Fin 3) * 2 + 1 * a.val = a.val; omega
  | ⟨1, _⟩ => show win0_1.index t (1 : Fin 3) * 512 + 1 * s.val = s.val; omega
  | ⟨2, _⟩ => show win0_1.index t (2 : Fin 3) * 256 + 1 * k.val = k.val; omega

/-! ## What a point writes back, the cover, the array -/

/-- WHAT POINT `t` WRITES BACK is block `t` of `G` of the argument arrays. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1)) (m ((c : Thread nD τ).loc main_arg2))) := by
  rw [flushed2_A, Body.out_eq]
  obtain ⟨-, -, -, -, -, f20, f21, f22⟩ := idx_facts t
  funext y
  show Body.blockFn (iblk m c 0 t) (iblk m c 1 t) y = G _ _ _ (((cfg0.win 2).blk t).view.emb y)
  unfold G
  refine block_is_result _ _ _ (iblk m c 0 t) (iblk m c 1 t) t.val (fun r k r' hr => query_block m c t r k r' hr)
    (fun a s k => tables_block m c t a s k) y _ _ _ ?_ ?_ ?_
  · show win0_2.index t (0 : Fin 3) * 2 + 1 * (y 0).val = (y 0).val; omega
  · show win0_2.index t (1 : Fin 3) * 2000 + 1 * (y 1).val = t.val * 2000 + (y 1).val; omega
  · show win0_2.index t (2 : Fin 3) * 512 + 1 * (y 2).val = (y 2).val; omega

/-- An index of the result array is in point `t`'s block iff each coordinate is in the block's range on its axis. -/
theorem mem_blk (t : Fin cfg0.N) (i : S2x100000x512.Idx) :
    i ∈ ((cfg0.win 2).blk t).view.set ↔ ∀ a : Fin 3, win0_2.index t a * S2x2000x512.size a ≤ (i a).val ∧ (i a).val < win0_2.index t a * S2x2000x512.size a + S2x2000x512.size a := by
  show i ∈ ((View.whole main_v3).slice (win0_2.rect t)).set ↔ _
  rw [View.set_slice_whole, Rect.mem_set_unit]
  exact Iff.rfl

/-- Every index of the result array is in the block of the point its row falls in. -/
theorem covered (i : S2x100000x512.Idx) :
    ∃ t : Fin cfg0.N, (cfg0.win 2).flush t = true ∧ i ∈ ((cfg0.win 2).blk t).view.set := by
  have hi0 : (i 0).val < 2 := (i 0).isLt
  have hi1 : (i 1).val < 100000 := (i 1).isLt
  have hi2 : (i 2).val < 512 := (i 2).isLt
  have hN : cfg0.N = 50 := N_0
  refine ⟨⟨(i 1).val / 2000, by rw [hN]; omega⟩, flush0_2 _, ?_⟩
  obtain ⟨-, -, -, -, -, f20, f21, f22⟩ := idx_facts ⟨(i 1).val / 2000, by rw [hN]; omega⟩
  rw [mem_blk]
  intro a
  match a with
  | ⟨0, _⟩ => show win0_2.index _ (0 : Fin 3) * 2 ≤ (i 0).val ∧ (i 0).val < win0_2.index _ (0 : Fin 3) * 2 + 2; rw [f20]; omega
  | ⟨1, _⟩ => show win0_2.index _ (1 : Fin 3) * 2000 ≤ (i 1).val ∧ (i 1).val < win0_2.index _ (1 : Fin 3) * 2000 + 2000; rw [f21]; show (i 1).val / 2000 * 2000 ≤ (i 1).val ∧ (i 1).val < (i 1).val / 2000 * 2000 + 2000; omega
  | ⟨2, _⟩ => show win0_2.index _ (2 : Fin 3) * 512 ≤ (i 2).val ∧ (i 2).val < win0_2.index _ (2 : Fin 3) * 512 + 512; rw [f22]; omega

/-- THE RESULT ARRAY after the run is `G` of the argument arrays. -/
theorem final (c : Dev nD) : (dats m 0 c).arrAt 2 cfg0.N
    = G (m ((c : Thread nD τ).loc main_arg0)) (m ((c : Thread nD τ).loc main_arg1)) (m ((c : Thread nD τ).loc main_arg2)) :=
  (dats m 0 c).arrAt_eq_of_cover 2 _ (fun t _ => flushed_eq m c t) covered

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v3)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.lean ====
/-
  The certificate's proof. The kernel and its reference both compute, for a query array Q (100000 × 256) and two memory
  tables (512 × 256 each), two planes of 100000 × 512: in the plane of a table M, row r holds the query row Q[r] in its
  first 256 columns and, in its last 256, what the row reads from M — the slots of M summed with the softmax of the
  scores Q[r]·M[s] along the slots. Over the extended reals a change of float format is the identity, and both programs
  are the same operations of the same entries in the same arrangement, so no law beyond unfolding joins them: the
  reference's extra maximum with minus infinity is absorbed by the fold it is taken with, and its sum's initial zero by
  the sum. The precondition (finite inputs) is never opened.
  The kernel's frame is the generated one; its value is read off the generated blockwise run: the body's four stores
  (two trips of its loop, two stores each) tile the output block and are restrictions of one function of the staged
  blocks; the fifty blocks cover the result array. The reference's value is its run's composed term, read one operation
  at a time at an index.
-/
import proofs.«181632_j35742717837916_2_alg».proof.Defs
import proofs.«181632_j35742717837916_2_alg».proof.Proof.Gen.Kernel
import proofs.«181632_j35742717837916_2_alg».proof.Proof.Gen.Kernel.Skeleton
import proofs.«181632_j35742717837916_2_alg».proof.Proof.Gen.Kernel.Loops
import proofs.«181632_j35742717837916_2_alg».proof.Proof.Gen.Kernel.Launch
import proofs.«181632_j35742717837916_2_alg».proof.Proof.Gen.Kernel.Points
import proofs.«181632_j35742717837916_2_alg».proof.Proof.Gen.Kernel.Frame
import proofs.«181632_j35742717837916_2_alg».proof.Proof.Gen.KernelIdeal
import proofs.«181632_j35742717837916_2_alg».proof.Proof.Gen.KernelIdeal.Skeleton
import proofs.«181632_j35742717837916_2_alg».proof.Proof.Gen.KernelIdeal.Loops
import proofs.«181632_j35742717837916_2_alg».proof.Proof.Gen.KernelIdeal.Launch
import proofs.«181632_j35742717837916_2_alg».proof.Proof.Gen.KernelIdeal.Points
import proofs.«181632_j35742717837916_2_alg».proof.Proof.Gen.KernelIdeal.Frame
import proofs.«181632_j35742717837916_2_alg».proof.Proof.Gen.ReferenceIdeal
import proofs.«181632_j35742717837916_2_alg».proof.Proof.Gen.Pre_finite_inputs
import proofs.«181632_j35742717837916_2_alg».proof.Proof.Gen.KernelIdeal.Value
import proofs.«181632_j35742717837916_2_alg».proof.Proof.RefRun
import proofs.«181632_j35742717837916_2_alg».proof.Proof.RefRead
import proofs.«181632_j35742717837916_2_alg».proof.Proof.RefRows
import proofs.«181632_j35742717837916_2_alg».proof.Proof.KernelArray
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result array at the specification's function of the argument arrays. -/
theorem algebraic : Cert.algebraic_KernelIdeal_ReferenceIdeal := by
  intro m ρ m' ρ' _ hagree
  refine ⟨fun c => Cert.KernelIdeal.Whole.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v32_eq, (hagree c).1, (hagree c).2.1, (hagree c).2.2]
  funext i
  rw [eq_ix3 i]
  exact Cert.RefRows.reference_eq _ _ _ (i 0) (i 1) (i 2)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
